-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096 : Shape := ⟨1, ![4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_arg5 : FVec F S4096x4096 .f32) (main_arg6 : FVec F S4096 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096x4096 .f32 := Host.absf main_arg5
  let main_cst_8 : FVec F S_ .f32 := constant S_ .f32 0x7F800000#32
  let main_v25 : FVec F S4096x4096 .f32 := broadcastInDim S4096x4096 ![] bcast_S_S4096x4096 main_cst_8
  let main_v26 : IVec S4096x4096 1 := cmpf .olt main_v24 main_v25
  let main_c_9 : IVec S_ 1 := constantI S_ 1 1#1
  let main_v27 : IVec S_ 1 := (fun x v => Host.reduce IntOp.andi x v reducesTo_S4096x4096_S_d0_1 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  main_v33

def fn {F : FTy → Type} [FloatOps F] (main_arg0 : FVec F S4096x4096 .f32) (main_arg1 : FVec F S4096x4096 .f32) (main_arg2 : FVec F S4096x4096 .f32) (main_arg3 : FVec F S4096 .f32) (main_arg4 : FVec F S4096 .f32) (main_arg5 : FVec F S4096x4096 .f32) (main_arg6 : FVec F S4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_arg6 main_v13 main_v16
-- ==== Kernel.lean ====
abbrev S4096x4096 : Shape := ⟨2, ![4096, 4096]⟩
abbrev S4096 : Shape := ⟨1, ![4096]⟩
abbrev S_ : Shape := ⟨0, ![]⟩
abbrev S1x4096 : Shape := ⟨2, ![1, 4096]⟩
abbrev S256x4096 : Shape := ⟨2, ![256, 4096]⟩
abbrev S2048x512 : Shape := ⟨2, ![2048, 512]⟩
abbrev S1x2048 : Shape := ⟨2, ![1, 2048]⟩
abbrev S2048x2048 : Shape := ⟨2, ![2048, 2048]⟩

abbrev nBuf : Space → Nat
  | .hbm => 26
  | .vmem => 16
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096, .f32⟩
  | .hbm, ⟨4, _⟩ => ⟨S4096, .f32⟩
  | .hbm, ⟨5, _⟩ => ⟨S4096x4096, .f32⟩
  | .hbm, ⟨6, _⟩ => ⟨S4096, .f32⟩
  | .hbm, ⟨7, _⟩ => ⟨S_, .f32⟩
  | .hbm, ⟨8, _⟩ => ⟨S4096, .f32⟩
  | .hbm, ⟨9, _⟩ => ⟨S4096, .f32⟩
  | .hbm, ⟨10, _⟩ => ⟨S4096, .f32⟩
  | .hbm, ⟨11, _⟩ => ⟨S4096, .f32⟩
  | .hbm, ⟨12, _⟩ => ⟨S4096, .i1⟩
  | .hbm, ⟨13, _⟩ => ⟨S4096, .f32⟩
  | .hbm, ⟨14, _⟩ => ⟨S4096, .f32⟩
  | .hbm, ⟨15, _⟩ => ⟨S4096, .f32⟩
  | .hbm, ⟨16, _⟩ => ⟨S4096, .f32⟩
  | .hbm, ⟨17, _⟩ => ⟨S4096, .f32⟩
  | .hbm, ⟨18, _⟩ => ⟨S4096, .f32⟩
  | .hbm, ⟨19, _⟩ => ⟨S4096, .f32⟩
  | .hbm, ⟨20, _⟩ => ⟨S4096, .f32⟩
  | .hbm, ⟨21, _⟩ => ⟨S4096, .f32⟩
  | .hbm, ⟨22, _⟩ => ⟨S4096, .f32⟩
  | .hbm, ⟨23, _⟩ => ⟨S1x4096, .f32⟩
  | .hbm, ⟨24, _⟩ => ⟨S4096x4096, .bf16⟩
  | .hbm, ⟨25, _⟩ => ⟨S4096x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S256x4096, .f32⟩
  | .local _ .vmem, ⟨5, _⟩ => ⟨S256x4096, .f32⟩
  | .local _ .vmem, ⟨6, _⟩ => ⟨S256x4096, .bf16⟩
  | .local _ .vmem, ⟨7, _⟩ => ⟨S256x4096, .bf16⟩
  | .local _ .vmem, ⟨8, _⟩ => ⟨S2048x512, .f32⟩
  | .local _ .vmem, ⟨9, _⟩ => ⟨S2048x512, .f32⟩
  | .local _ .vmem, ⟨10, _⟩ => ⟨S2048x512, .bf16⟩
  | .local _ .vmem, ⟨11, _⟩ => ⟨S2048x512, .bf16⟩
  | .local _ .vmem, ⟨12, _⟩ => ⟨S1x2048, .f32⟩
  | .local _ .vmem, ⟨13, _⟩ => ⟨S1x2048, .f32⟩
  | .local _ .vmem, ⟨14, _⟩ => ⟨S2048x2048, .f32⟩
  | .local _ .vmem, ⟨15, _⟩ => ⟨S2048x2048, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_cst : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨3, ![2, 2, 8], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S2048x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S2048x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  bcast_S_S4096 : S_.BroadcastsInDim S4096 (![] : Fin 0 → Fin S4096.rank)
  shapeCasts_S4096_S1x4096 : S4096.ShapeCasts S1x4096
  inb_S256x4096_S256x4096_0_0 : ∀ a, (![0, 0] : Fin 2 → Nat) a + S256x4096.size a ≤ S256x4096.size a
  h_S256x4096 : 0 < S256x4096.numel
  bitsLt_bf16_f32 : FTy.bits .bf16 < FTy.bits .f32
  packedbf16_S256x4096_S256x4096_0_0 : (Rect.unit (s := S256x4096) ![0, 0] S256x4096.size inb_S256x4096_S256x4096_0_0).PackedRows (EltTy.packing .bf16)
  inb_S2048x2048_S2048x2048_0_0 : ∀ a, (![0, 0] : Fin 2 → Nat) a + S2048x2048.size a ≤ S2048x2048.size a
  h_S2048x2048 : 0 < S2048x2048.numel
  inb_S2048x512_S2048x512_0_0 : ∀ a, (![0, 0] : Fin 2 → Nat) a + S2048x512.size a ≤ S2048x512.size a
  h_S2048x512 : 0 < S2048x512.numel
  shapeCasts_S2048x2048_S2048x2048 : S2048x2048.ShapeCasts S2048x2048
  shapeCasts_S2048x512_S2048x512 : S2048x512.ShapeCasts S2048x512
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S2048x2048 : S1x2048.Broadcasts S2048x2048
  dot_S2048x512_S2048x512_S2048x2048_1_1_0_0_n_n_wf : DotDims.WF S2048x512 S2048x512 S2048x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .f32 = 32 ∨ (Rect.block (s := S4096x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S4096x4096.size a
  hwx0_1 : ∀ i : grid0.Coords, EltTy.bits .f32 = 32 ∨ (Rect.block (s := S4096x4096) S256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S4096x4096.size a
  hwx0_2 : ∀ i : grid0.Coords, EltTy.bits .f32 = 32 ∨ (Rect.block (s := S4096x4096) S256x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S4096x4096.size a
  hwx0_3 : ∀ i : grid0.Coords, EltTy.bits .bf16 = 32 ∨ (Rect.block (s := S4096x4096) S256x4096.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x512.size a ≤ S4096x4096.size a
  hwx1_0 : ∀ i : grid1.Coords, EltTy.bits .f32 = 32 ∨ (Rect.block (s := S4096x4096) S2048x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x512.size a ≤ S4096x4096.size a
  hwx1_1 : ∀ i : grid1.Coords, EltTy.bits .bf16 = 32 ∨ (Rect.block (s := S4096x4096) S2048x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x4096.size a
  hwx1_2 : ∀ i : grid1.Coords, EltTy.bits .f32 = 32 ∨ (Rect.block (s := S1x4096) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x2048.size a ≤ S4096x4096.size a
  hwx1_3 : ∀ i : grid1.Coords, EltTy.bits .f32 = 32 ∨ (Rect.block (s := S4096x4096) S2048x2048.size (cc1_transform_3 i) (hinb1_3 i)).WholeWords (EltTy.packing .f32)

variable [Facts₀]

def dot_S2048x512_S2048x512_S2048x2048_1_1_0_0_n_n : DotDims S2048x512 S2048x512 S2048x2048 where
  lhsContracting := [1]
  rhsContracting := [1]
  lhsNonContracting := [0]
  rhsNonContracting := [0]
  lhsBatch := []
  rhsBatch := []
  wf := dot_S2048x512_S2048x512_S2048x2048_1_1_0_0_n_n_wf

abbrev win0_0 : Pipeline.Window sig grid0 :=
  Pipeline.Window.ofSpec (Memref.whole main_arg1) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S256x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S256x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S2048x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S2048x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S2048x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4096x4096 : Shape := ⟨2, ![4096, 4096]⟩
abbrev S4096 : Shape := ⟨1, ![4096]⟩
abbrev S_ : Shape := ⟨0, ![]⟩
abbrev S1x4096 : Shape := ⟨2, ![1, 4096]⟩

abbrev nBuf : Space → Nat
  | .hbm => 43
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096, .f32⟩
  | .hbm, ⟨4, _⟩ => ⟨S4096, .f32⟩
  | .hbm, ⟨5, _⟩ => ⟨S4096x4096, .f32⟩
  | .hbm, ⟨6, _⟩ => ⟨S4096, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S4096x4096, .i1⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S_, .f32⟩
  | .hbm, ⟨24, _⟩ => ⟨S4096, .f32⟩
  | .hbm, ⟨25, _⟩ => ⟨S4096, .f32⟩
  | .hbm, ⟨26, _⟩ => ⟨S4096, .f32⟩
  | .hbm, ⟨27, _⟩ => ⟨S4096, .f32⟩
  | .hbm, ⟨28, _⟩ => ⟨S4096, .i1⟩
  | .hbm, ⟨29, _⟩ => ⟨S4096, .f32⟩
  | .hbm, ⟨30, _⟩ => ⟨S4096, .f32⟩
  | .hbm, ⟨31, _⟩ => ⟨S4096, .f32⟩
  | .hbm, ⟨32, _⟩ => ⟨S4096, .f32⟩
  | .hbm, ⟨33, _⟩ => ⟨S4096, .f32⟩
  | .hbm, ⟨34, _⟩ => ⟨S4096, .f32⟩
  | .hbm, ⟨35, _⟩ => ⟨S4096, .f32⟩
  | .hbm, ⟨36, _⟩ => ⟨S4096, .f32⟩
  | .hbm, ⟨37, _⟩ => ⟨S4096, .f32⟩
  | .hbm, ⟨38, _⟩ => ⟨S4096, .f32⟩
  | .hbm, ⟨39, _⟩ => ⟨S4096x4096, .f32⟩
  | .hbm, ⟨40, _⟩ => ⟨S1x4096, .f32⟩
  | .hbm, ⟨41, _⟩ => ⟨S4096x4096, .f32⟩
  | .hbm, ⟨42, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_cst : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_call1_cst : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_call1_v5 : Ref sig .tc := ⟨.hbm, 29, rfl⟩
abbrev main_call1_v6 : Ref sig .tc := ⟨.hbm, 30, rfl⟩
abbrev main_call1_v7 : Ref sig .tc := ⟨.hbm, 31, rfl⟩
abbrev main_call1_v8 : Ref sig .tc := ⟨.hbm, 32, rfl⟩
abbrev main_call1_v9 : Ref sig .tc := ⟨.hbm, 33, rfl⟩
abbrev main_call1_v10 : Ref sig .tc := ⟨.hbm, 34, rfl⟩
abbrev main_call1_v11 : Ref sig .tc := ⟨.hbm, 35, rfl⟩
abbrev main_v3 : Ref sig .tc := ⟨.hbm, 36, rfl⟩
abbrev main_v4 : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S_S4096 : S_.BroadcastsInDim S4096 (![] : Fin 0 → Fin S4096.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  dot_S4096x4096_S4096x4096_S4096x4096_1_1_0_0_n_n_wf : DotDims.WF S4096x4096 S4096x4096 S4096x4096 [1] [1] [0] [0] [] []

variable [Facts₀]

def dot_S4096x4096_S4096x4096_S4096x4096_1_1_0_0_n_n : DotDims S4096x4096 S4096x4096 S4096x4096 where
  lhsContracting := [1]
  rhsContracting := [1]
  lhsNonContracting := [0]
  rhsNonContracting := [0]
  lhsBatch := []
  rhsBatch := []
  wf := dot_S4096x4096_S4096x4096_S4096x4096_1_1_0_0_n_n_wf

class Facts : Prop extends Facts₀ where

variable [Facts]
-- ==== Proof.Spec.lean ====
/-
  The function both programs compute, on the extended reals.

  A Bayesian linear layer: the weight and the bias are reparameterised, entry by entry, as
  `mu + softplus rho * eps`, and the result at token `t` and output feature `o` is the inner product of row `t` of
  `x` with row `o` of the weight, plus the bias at `o`:
      out t o = (∑ i, x t i * (wmu o i + softplus (wrho o i) * weps o i)) + (bmu o + softplus (brho o) * beps o).

  Both programs spell `softplus r` as `logaddexp r 0`: a test "`r - 0` differs from itself" (false of every extended
  real, whichever comparison predicate spells "differs") selecting `r + 0`, else `max r 0 + log (1 + exp (-|r - 0|))`;
  one of them writes the negation as `0 - |r - 0|`. On the extended reals all these are one function, with no
  finiteness assumed: `a - 0 = a`, `0 - a = -a`, and a comparison of a value with itself for difference is `0`.
-/
import Idealize.ShloMosaic.PureOps.Ideal.Laws
import Idealize.ShloMosaic.Lib.ValueIdx

noncomputable section

namespace Cert.BayesLinear

open Idealize.ShloMosaic Idealize.ShloMosaic.ValueIdx
open scoped BigOperators

/-- The shape of `x`, of the three weight parameters and of the result: 4096 by 4096. -/
abbrev Mat : Shape := ⟨2, ![4096, 4096]⟩
/-- The shape of the three bias parameters: 4096. -/
abbrev Vc : Shape := ⟨1, ![4096]⟩

/-- `softplus r = max r 0 + log (1 + exp (-|r|))`, with `|r| = max r (-r)`. -/
def softplus (r : EReal) : EReal := max r 0 + Ideal.log1p (Ideal.exp (-(max r (-r))))

/-- One reparameterised entry: `mu + softplus rho * eps`. -/
def reparam (mu rho eps : EReal) : EReal := mu + softplus rho * eps

/-- The reparameterised weight, entry by entry. -/
def weight (mu rho eps : Mat.Idx → EReal) : Mat.Idx → EReal := fun j => reparam (mu j) (rho j) (eps j)

/-- The reparameterised bias, entry by entry. -/
def bias (mu rho eps : Vc.Idx → EReal) : Vc.Idx → EReal := fun j => reparam (mu j) (rho j) (eps j)

/-- The layer's result at token `t` and output feature `o`. -/
def linearAt (x w : Mat.Idx → EReal) (b : Vc.Idx → EReal) (t o : Fin 4096) : EReal :=
  (∑ i : Fin 4096, x (ix2 t i) * w (ix2 o i)) + b (ix1 o)

/-- The layer's result as an array. -/
def linear (x w : Mat.Idx → EReal) (b : Vc.Idx → EReal) : Mat.Idx → EReal := fun j => linearAt x w b (j 0) (j 1)

theorem linear_ix2 (x w : Mat.Idx → EReal) (b : Vc.Idx → EReal) (t o : Fin 4096) :
    linear x w b (ix2 t o) = linearAt x w b t o := rfl

/-- The shape of the bias laid out as one row: 1 by 4096. -/
abbrev Row : Shape := ⟨2, ![1, 4096]⟩

/-- The same result with the bias given as a 1-by-4096 row (the layout the matrix-product stage reads it in). -/
def gemmAt (x w : Mat.Idx → EReal) (b : Row.Idx → EReal) (t o : Fin 4096) : EReal :=
  (∑ i : Fin 4096, x (ix2 t i) * w (ix2 o i)) + b (ix2 0 o)

/-- The same result with the bias given as a row, as an array. -/
def gemm (x w : Mat.Idx → EReal) (b : Row.Idx → EReal) : Mat.Idx → EReal := fun j => gemmAt x w b (j 0) (j 1)

/-- A bias vector laid out as a row. -/
def asRow (b : Vc.Idx → EReal) : Row.Idx → EReal := fun j => b (ix1 (j 1))

/-- With the bias vector laid out as a row the two forms of the result agree. -/
theorem gemm_asRow (x w : Mat.Idx → EReal) (b : Vc.Idx → EReal) : gemm x w (asRow b) = linear x w b := rfl

/-- An extended real does not differ from itself, under the ordered spelling of "differs". -/
theorem cmp_one_self (a : EReal) : Ideal.cmp .one a a = 0#1 := by
  simp [Ideal.cmp]

/-- An extended real does not differ from itself, under the unordered spelling of "differs". -/
theorem cmp_une_self (a : EReal) : Ideal.cmp .une a a = 0#1 := by
  simp [Ideal.cmp]

/-- The spelling with the negation written `0 - |r - 0|` and the ordered test. -/
theorem softplus_sub_form (r : EReal) :
    Scalar.select (Ideal.cmp .one (r - 0) (r - 0)) (r + 0)
        (max r 0 + Ideal.log1p (Ideal.exp (0 - max (r - 0) (-(r - 0))))) = softplus r := by
  rw [cmp_one_self, select_zero, sub_zero, zero_sub]
  rfl

/-- The spelling with the negation written `-|r - 0|` and the unordered test. -/
theorem softplus_neg_form (r : EReal) :
    Scalar.select (Ideal.cmp .une (r - 0) (r - 0)) (r + 0)
        (max r 0 + Ideal.log1p (Ideal.exp (-(max (r - 0) (-(r - 0)))))) = softplus r := by
  rw [cmp_une_self, select_zero, sub_zero]
  rfl

end Cert.BayesLinear

end
-- ==== Proof.RefValue.lean ====
/-
  The reference program's result is the Bayesian linear layer of the specification.

  The reference computes the reparameterised weight entry by entry, `wmu + softplus wrho * weps`, and the bias likewise,
  takes the contraction of `x` with the weight over the second axis of both (so the result at `(t, o)` is the inner
  product of row `t` of `x` with row `o` of the weight), lays the bias out as a row, repeats that row down the
  4096 rows and adds. Read one element at a time this is `linearAt`: the `softplus` spelling here is the one with the
  unordered test and the negation written `-|r - 0|`, and the two broadcasts of the bias read it at the output
  feature `o` whatever the token `t`.
-/
import proofs.«162152_j8169027797260_2_alg».proof.Proof.Gen.ReferenceIdeal.Read
import proofs.«162152_j8169027797260_2_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Read Idealize.ShloMosaic Idealize.ShloMosaic.ValueIdx
open scoped BigOperators

/-- The weight's `softplus` stage at one entry: the select between `r + 0` and `max r 0 + log1p (exp (-|r - 0|))` on
    the test "`r - 0` differs from itself" is `softplus r`. -/
theorem wsoft (x2 : (⟨S4096x4096, .f32⟩ : BufTy).Contents (Elt Ideal)) (j : S4096x4096.Idx) :
    val_main_v0 (F := Ideal) x2 j = Cert.BayesLinear.softplus (x2 j) := by
  rw [val_main_v0_apply, val_main_call0_v4_apply, val_main_call0_v6_apply, val_main_call0_v11_apply,
    val_main_call0_v1_apply, val_main_call0_v10_apply, val_main_call0_v9_apply, val_main_call0_v8_apply,
    val_main_call0_v7_apply, val_main_call0_v3_apply, val_main_call0_v0_apply, val_main_call0_v2_apply,
    val_main_call0_v5_apply, val_main_call0_cst_apply]
  simp only [Ideal.ofBits_def, Ideal.ofBits_zero_f32, Ideal.hostNegf_def, Ideal.hostAbsf_def, Ideal.absf_def,
    Ideal.cmpf_def, Ideal.hostUnary_exp_def, Ideal.hostUnary_log1p_def, Ideal.negf_def, Ideal.subf_def,
    Ideal.addf_def, Ideal.maximumf_def]
  exact Cert.BayesLinear.softplus_neg_form (x2 j)

/-- The reparameterised weight, entry by entry. -/
theorem wstage (x1 x2 x5 : (⟨S4096x4096, .f32⟩ : BufTy).Contents (Elt Ideal)) (j : S4096x4096.Idx) :
    val_main_v2 (F := Ideal) x1 x2 x5 j = Cert.BayesLinear.weight x1 x2 x5 j := by
  rw [val_main_v2_apply, val_main_v1_apply, wsoft]
  rfl

/-- The bias's `softplus` stage at one entry. -/
theorem bsoft (x4 : (⟨S4096, .f32⟩ : BufTy).Contents (Elt Ideal)) (j : S4096.Idx) :
    val_main_v3 (F := Ideal) x4 j = Cert.BayesLinear.softplus (x4 j) := by
  rw [val_main_v3_apply, val_main_call1_v4_apply, val_main_call1_v6_apply, val_main_call1_v11_apply,
    val_main_call1_v1_apply, val_main_call1_v10_apply, val_main_call1_v9_apply, val_main_call1_v8_apply,
    val_main_call1_v7_apply, val_main_call1_v3_apply, val_main_call1_v0_apply, val_main_call1_v2_apply,
    val_main_call1_v5_apply, val_main_call1_cst_apply]
  simp only [Ideal.ofBits_def, Ideal.ofBits_zero_f32, Ideal.hostNegf_def, Ideal.hostAbsf_def, Ideal.absf_def,
    Ideal.cmpf_def, Ideal.hostUnary_exp_def, Ideal.hostUnary_log1p_def, Ideal.negf_def, Ideal.subf_def,
    Ideal.addf_def, Ideal.maximumf_def]
  exact Cert.BayesLinear.softplus_neg_form (x4 j)

/-- The reparameterised bias, entry by entry. -/
theorem bstage (x3 x4 x6 : (⟨S4096, .f32⟩ : BufTy).Contents (Elt Ideal)) (j : S4096.Idx) :
    val_main_v5 (F := Ideal) x3 x4 x6 j = Cert.BayesLinear.bias x3 x4 x6 j := by
  rw [val_main_v5_apply, val_main_v4_apply, bsoft]
  rfl

/-- The contraction reads row `t` of its left operand … -/
theorem lidx_ix2 (t o k : Fin 4096) : lidx_main_v6 (ix2 t o) k = ix2 t k :=
  funext fun a => Fin.ext (by match a with | ⟨0, _⟩ => rfl | ⟨1, _⟩ => rfl)

/-- … and row `o` of its right operand. -/
theorem ridx_ix2 (t o k : Fin 4096) : ridx_main_v6 (ix2 t o) k = ix2 o k :=
  funext fun a => Fin.ext (by match a with | ⟨0, _⟩ => rfl | ⟨1, _⟩ => rfl)

/-- The two broadcasts of the bias read it at the output feature. -/
theorem bidx_ix2 (t o : Fin 4096) : idx_main_v7 (idx_main_v8 (ix2 t o)) = ix1 o :=
  funext fun a => Fin.ext (by match a with | ⟨0, _⟩ => rfl)

/-- The reference's result is the specification's layer. -/
theorem ref_eq (x0 x1 x2 : (⟨S4096x4096, .f32⟩ : BufTy).Contents (Elt Ideal))
    (x3 x4 : (⟨S4096, .f32⟩ : BufTy).Contents (Elt Ideal))
    (x5 : (⟨S4096x4096, .f32⟩ : BufTy).Contents (Elt Ideal))
    (x6 : (⟨S4096, .f32⟩ : BufTy).Contents (Elt Ideal)) :
    val_main_v9 (F := Ideal) x0 x1 x2 x3 x4 x5 x6
      = Cert.BayesLinear.linear x0 (Cert.BayesLinear.weight x1 x2 x5) (Cert.BayesLinear.bias x3 x4 x6) := by
  funext i
  obtain ⟨t, o, rfl⟩ : ∃ (t o : Fin 4096), i = ix2 t o := ⟨i 0, i 1, eq_ix2 i⟩
  rw [val_main_v9_apply, val_main_v6_apply, val_main_v8_apply, val_main_v7_apply, bidx_ix2, bstage,
    Cert.BayesLinear.linear_ix2, Ideal.addf_def]
  unfold Cert.BayesLinear.linearAt
  congr 1
  refine Finset.sum_congr rfl fun k _ => ?_
  rw [lidx_ix2, ridx_ix2, wstage]

end Cert.ReferenceIdeal.RefValue

end
-- ==== Proof.ValueRun.lean ====
/-
  The run of the whole program with its result array kept.

  The program is two stretches of host operations followed by two pallas regions. Every weakly fair execution from a
  memory with zero counters terminates without a fault, and in its final state every unscoped buffer holds the
  contents obtained by folding the segments over the launch memory: the host operations' results, then each
  region's arrays at what its write-backs leave. Read at the result buffer this is the second region's output array
  after its last grid point; read at an argument it is the launch contents, since no segment writes an argument.
-/
import proofs.«162152_j8169027797260_2_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the fold of
    the segments over the launch memory and every argument as launched. -/
theorem run_fold : θ_run defs (onTc (τ := τ) (main (F := F))) ⟨m, fun _ => 0, ρ⟩ (fun r => ∀ c : Dev nD,
      r.2.mem ((c.tc : Thread nD τ).loc main_v5) = W4 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v5 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)

/-- The fold at the result buffer is the second region's output array after its last grid point, the region
    entered at the contents the first region leaves. -/
theorem fold_result (c : Dev nD) :
    W4 m ρ c (Proc.devRef .tc main_v5) = (dat1 (V3 m ρ) c).arrAt 3 cfg1.N :=
  W4_arr m ρ c 3

end Cert.KernelIdeal.ValueRun

end
-- ==== Proof.WeightRegion.lean ====
/-
  The first region's result array: the reparameterised weight.

  The region walks the 4096-by-4096 arrays in 16 bands of 256 rows. At band `t` it reads rows `256 t … 256 t + 255`
  of `mu`, `rho` and `eps`, computes `mu + softplus rho * eps` entry by entry (the softplus in its
  `logaddexp rho 0` spelling, the final change of float format the identity on the extended reals), and writes the
  band back to the same rows of the result. The 16 bands tile the rows, so the result array ends holding the
  reparameterised weight at every index.
-/
import proofs.«162152_j8169027797260_2_alg».proof.Proof.Gen.KernelIdeal.Frame
import proofs.«162152_j8169027797260_2_alg».proof.Proof.Spec
import Idealize.ShloMosaic.Lib.Pipeline.Value
import Idealize.ShloMosaic.Lib.ValueIdx
import Idealize.ShloMosaic.PureOps.Ideal.Laws

noncomputable section

namespace Cert.KernelIdeal.WeightRegion

open Cert.KernelIdeal Cert.KernelIdeal.Gen Idealize.ShloMosaic Idealize.ShloMosaic.ValueIdx Idealize.ShloMosaic.TcCoe
open Idealize.SL.Sem
open Idealize.ShloMosaic.Pipeline (Dat)

/-! ## One entry of a band -/

/-- The body's value at row `p`, column `q` of a band is `mu + softplus rho * eps` of the three loaded entries there:
    every operation of the body is entry by entry, the zero constant is `0`, and the `logaddexp rho 0` spelling
    with the negation written `0 - |rho - 0|` is the softplus. -/
theorem band_entry (v0 v1 v16 : Vec Ideal S256x4096 .f32) (p : Fin 256) (q : Fin 4096) :
    k0_pay1 v0 v1 v16 (ix2 p q)
      = Cert.BayesLinear.reparam (v0 (ix2 p q)) (v1 (ix2 p q)) (v16 (ix2 p q)) := by
  unfold k0_pay1
  show v0 (ix2 p q)
      + Scalar.select
          (Ideal.cmp .one (v1 (ix2 p q) - Ideal.ofBits .f32 0x00000000#32) (v1 (ix2 p q) - Ideal.ofBits .f32 0x00000000#32))
          (v1 (ix2 p q) + Ideal.ofBits .f32 0x00000000#32)
          (max (v1 (ix2 p q)) (Ideal.ofBits .f32 0x00000000#32)
            + Ideal.log1p (Ideal.exp (Ideal.ofBits .f32 0x00000000#32
                - max (v1 (ix2 p q) - Ideal.ofBits .f32 0x00000000#32) (-(v1 (ix2 p q) - Ideal.ofBits .f32 0x00000000#32)))))
        * v16 (ix2 p q) = _
  rw [Ideal.ofBits_zero_f32, Cert.BayesLinear.softplus_sub_form]
  rfl

/-- The same at any index of a band. -/
theorem band_entry_at (v0 v1 v16 : Vec Ideal S256x4096 .f32) (j : S256x4096.Idx) :
    k0_pay1 v0 v1 v16 j = Cert.BayesLinear.reparam (v0 j) (v1 j) (v16 j) := by
  obtain ⟨p, q, rfl⟩ : ∃ (p : Fin 256) (q : Fin 4096), j = ix2 p q := ⟨j 0, j 1, eq_ix2 j⟩
  exact band_entry v0 v1 v16 p q

/-! ## Where the bands sit -/

/-- The body reads and writes each whole block: its accesses start at row 0, column 0. -/
theorem zero_offsets : (![0, 0] : Fin 2 → Nat) = fun _ => 0 := funext fun a => by fin_cases a <;> rfl

/-- At band `t` each of the four windows is on block `(t, 0)` of its array: the three inputs move with the result. -/
theorem band_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-! ## What band `t` writes back -/

/-- Band `t` writes back rows `256 t … 256 t + 255` of the reparameterised weight: the body's value at `(p, q)` of the
    band is `mu + softplus rho * eps` of the inputs' blocks there, and each input's block sits at the same rows and
    columns of its array as the result's block does of the result (a block's coordinate is its block index times the
    block's extent plus the coordinate inside the block). -/
theorem band_flushed (V : (c : Dev nD) → (b : Ref sig .tc) → Buf (Elt Ideal) ((c : Thread nD τ).loc b)) (c : Dev nD)
    (t : Fin cfg0.N) :
    (dat0 (F := Ideal) V c).flushed 3 t
      = ((cfg0.win 3).blk t).view.read (Elt Ideal)
          (Cert.BayesLinear.weight (V c main_arg1) (V c main_arg2) (V c main_arg5)) := by
  show (cfg0.win 3).cut (grid0.coords t) ((dat0 (F := Ideal) V c).after 3 t) = _
  rw [after0_3]
  unfold out0_3
  rw [View.canon_unit_zero zero_offsets]
  simp only [View.ld_unit_zero (S := S256x4096) zero_offsets]
  obtain ⟨a0, b0, a1, b1, a2, b2, a3, b3⟩ := band_index t
  funext j
  show k0_pay1 (iblk0 V c 0 t) (iblk0 V c 1 t) (iblk0 V c 2 t) j
      = Cert.BayesLinear.weight (V c main_arg1) (V c main_arg2) (V c main_arg5) (((cfg0.win 3).blk t).view.emb j)
  refine (band_entry_at (iblk0 V c 0 t) (iblk0 V c 1 t) (iblk0 V c 2 t) j).trans ?_
  show Cert.BayesLinear.reparam (V c main_arg1 (((cfg0.win 0).blk t).view.emb j))
        (V c main_arg2 (((cfg0.win 1).blk t).view.emb j)) (V c main_arg5 (((cfg0.win 2).blk t).view.emb j))
      = Cert.BayesLinear.reparam (V c main_arg1 (((cfg0.win 3).blk t).view.emb j))
        (V c main_arg2 (((cfg0.win 3).blk t).view.emb j)) (V c main_arg5 (((cfg0.win 3).blk t).view.emb j))
  have h0 : ((cfg0.win 0).blk t).view.emb j = ((cfg0.win 3).blk t).view.emb j := by
    funext a; apply Fin.ext
    match a with
    | ⟨0, _⟩ => show win0_0.index t (0 : Fin 2) * 256 + 1 * (j 0).val = win0_3.index t (0 : Fin 2) * 256 + 1 * (j 0).val; omega
    | ⟨1, _⟩ => show win0_0.index t (1 : Fin 2) * 4096 + 1 * (j 1).val = win0_3.index t (1 : Fin 2) * 4096 + 1 * (j 1).val; omega
  have h1 : ((cfg0.win 1).blk t).view.emb j = ((cfg0.win 3).blk t).view.emb j := by
    funext a; apply Fin.ext
    match a with
    | ⟨0, _⟩ => show win0_1.index t (0 : Fin 2) * 256 + 1 * (j 0).val = win0_3.index t (0 : Fin 2) * 256 + 1 * (j 0).val; omega
    | ⟨1, _⟩ => show win0_1.index t (1 : Fin 2) * 4096 + 1 * (j 1).val = win0_3.index t (1 : Fin 2) * 4096 + 1 * (j 1).val; omega
  have h2 : ((cfg0.win 2).blk t).view.emb j = ((cfg0.win 3).blk t).view.emb j := by
    funext a; apply Fin.ext
    match a with
    | ⟨0, _⟩ => show win0_2.index t (0 : Fin 2) * 256 + 1 * (j 0).val = win0_3.index t (0 : Fin 2) * 256 + 1 * (j 0).val; omega
    | ⟨1, _⟩ => show win0_2.index t (1 : Fin 2) * 4096 + 1 * (j 1).val = win0_3.index t (1 : Fin 2) * 4096 + 1 * (j 1).val; omega
  rw [h0, h1, h2]

/-! ## The bands tile the rows -/

/-- An index of the result lies in band `t`'s block iff, on each axis, its coordinate lies in the block's range. -/
theorem mem_band (t : Fin cfg0.N) (i : S4096x4096.Idx) :
    i ∈ ((cfg0.win 3).blk t).view.set
      ↔ ∀ a : Fin 2, win0_3.index t a * S256x4096.size a ≤ (i a).val
          ∧ (i a).val < win0_3.index t a * S256x4096.size a + S256x4096.size a := by
  show i ∈ ((View.whole main_v4).slice (win0_3.rect t)).set ↔ _
  rw [View.set_slice_whole, Rect.mem_set_unit]
  exact Iff.rfl

/-- Row `r` of the result lies in band `r / 256`, which writes back like every band. -/
theorem bands_cover (i : S4096x4096.Idx) :
    ∃ t : Fin cfg0.N, (cfg0.win 3).flush t = true ∧ i ∈ ((cfg0.win 3).blk t).view.set := by
  have hi0 : (i 0).val < 4096 := (i 0).isLt
  have hi1 : (i 1).val < 4096 := (i 1).isLt
  obtain ⟨t, ht⟩ : ∃ t : Fin cfg0.N, t.val = (i 0).val / 256 :=
    ⟨⟨(i 0).val / 256, by rw [show cfg0.N = 16 from N_0]; omega⟩, rfl⟩
  obtain ⟨-, -, -, -, -, -, a3, b3⟩ := band_index t
  refine ⟨t, flush0_3 t, ?_⟩
  rw [mem_band]
  intro a
  match a with
  | ⟨0, _⟩ =>
    show win0_3.index t (0 : Fin 2) * 256 ≤ (i 0).val ∧ (i 0).val < win0_3.index t (0 : Fin 2) * 256 + 256
    omega
  | ⟨1, _⟩ =>
    show win0_3.index t (1 : Fin 2) * 4096 ≤ (i 1).val ∧ (i 1).val < win0_3.index t (1 : Fin 2) * 4096 + 4096
    omega

/-! ## The result array -/

/-- After the region the result array holds the reparameterised weight `mu + softplus rho * eps` at every index, whatever
    the arrays held when the region was entered. -/
theorem weight_array (V : (c : Dev nD) → (b : Ref sig .tc) → Buf (Elt Ideal) ((c : Thread nD τ).loc b)) (c : Dev nD) :
    (dat0 (F := Ideal) V c).arrAt 3 cfg0.N
      = Cert.BayesLinear.weight (V c main_arg1) (V c main_arg2) (V c main_arg5) :=
  (dat0 (F := Ideal) V c).arrAt_eq_of_cover 3
    (Cert.BayesLinear.weight (V c main_arg1) (V c main_arg2) (V c main_arg5))
    (fun t _ => band_flushed V c t) bands_cover

end Cert.KernelIdeal.WeightRegion

end
-- ==== Proof.HostArgs.lean ====
/-
  What the two regions find at the arguments, and where the second region finds the first one's result.

  No host operation writes an argument, so before the first region every argument holds its launch contents; the
  first region writes only its own result array, so the second region still finds `x` as launched, and finds the
  first region's result array at what the first region's write-backs left.
-/
import proofs.«162152_j8169027797260_2_alg».proof.Proof.Gen.KernelIdeal.Frame
import Idealize.ShloMosaic.Lib.StableHlo.Run

noncomputable section

namespace Cert.KernelIdeal.HostArgs

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

/-- No host operation writes argument 0: the first region finds it as launched. -/
theorem W2_arg0 (c : Dev nD) : W2 m ρ c (Proc.devRef .tc main_arg0) = m ((c : Thread nD τ).loc main_arg0) :=
  calc W2 m ρ c (Proc.devRef .tc main_arg0)
    _ = W1 m ρ c (Proc.devRef .tc main_arg0) := StableHlo.after_of_forall_not_mem (b := Proc.devRef .tc main_arg0) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- No host operation writes argument 1: the first region finds it as launched. -/
theorem W2_arg1 (c : Dev nD) : W2 m ρ c (Proc.devRef .tc main_arg1) = m ((c : Thread nD τ).loc main_arg1) :=
  calc W2 m ρ c (Proc.devRef .tc main_arg1)
    _ = W1 m ρ c (Proc.devRef .tc main_arg1) := StableHlo.after_of_forall_not_mem (b := Proc.devRef .tc main_arg1) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- No host operation writes argument 2: the first region finds it as launched. -/
theorem W2_arg2 (c : Dev nD) : W2 m ρ c (Proc.devRef .tc main_arg2) = m ((c : Thread nD τ).loc main_arg2) :=
  calc W2 m ρ c (Proc.devRef .tc main_arg2)
    _ = W1 m ρ c (Proc.devRef .tc main_arg2) := StableHlo.after_of_forall_not_mem (b := Proc.devRef .tc main_arg2) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-- No host operation writes argument 5: the first region finds it as launched. -/
theorem W2_arg5 (c : Dev nD) : W2 m ρ c (Proc.devRef .tc main_arg5) = m ((c : Thread nD τ).loc main_arg5) :=
  calc W2 m ρ c (Proc.devRef .tc main_arg5)
    _ = W1 m ρ c (Proc.devRef .tc main_arg5) := StableHlo.after_of_forall_not_mem (b := Proc.devRef .tc main_arg5) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

/-- The first region finds `weight_mu` as launched. -/
theorem V2_arg1 (c : Dev nD) : V2 m ρ c main_arg1 = m ((c : Thread nD τ).loc main_arg1) := W2_arg1 m ρ c
/-- The first region finds `weight_rho` as launched. -/
theorem V2_arg2 (c : Dev nD) : V2 m ρ c main_arg2 = m ((c : Thread nD τ).loc main_arg2) := W2_arg2 m ρ c
/-- The first region finds `weight_epsilon` as launched. -/
theorem V2_arg5 (c : Dev nD) : V2 m ρ c main_arg5 = m ((c : Thread nD τ).loc main_arg5) := W2_arg5 m ρ c

/-- The second region finds `x` as launched: it is no array of the first region. -/
theorem V3_arg0 (c : Dev nD) : V3 m ρ c main_arg0 = m ((c : Thread nD τ).loc main_arg0) :=
  (W3_of_ne m ρ c main_arg0 (by decide)).trans (W2_arg0 m ρ c)

/-- The second region finds the first region's result array at what the first region's write-backs left. -/
theorem V3_v4 (c : Dev nD) : V3 m ρ c main_v4 = (dat0 (V2 m ρ) c).arrAt 3 cfg0.N := W3_arr m ρ c 3

end Cert.KernelIdeal.HostArgs

end
-- ==== Proof.HostBias.lean ====
/-
  The bias row the second region finds.

  Before the first region the host computes the reparameterised bias, `bmu + softplus brho * beps`, entry by entry —
  `softplus r` spelled as the select between `r + 0` and `max r 0 + log1p (exp (-|r - 0|))` on the test "`r - 0`
  differs from itself" — and reshapes the 4096 entries into one row of 4096. The first region does not touch that
  row, so the second region finds, at entry `(0, o)` of the row, the specification's bias at `o`.
-/
import proofs.«162152_j8169027797260_2_alg».proof.Proof.Gen.KernelIdeal.Frame
import proofs.«162152_j8169027797260_2_alg».proof.Proof.Spec
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.HostBias

open Cert.KernelIdeal Cert.KernelIdeal.Gen Idealize.ShloMosaic Idealize.ShloMosaic.ValueIdx Idealize.ShloMosaic.TcCoe
  Idealize.SL.Sem Idealize.ShloMosaic.StableHlo

variable (m : (ℓ : Loc nD τ sig) → Buf (Elt Ideal) ℓ) (ρ : Dev nD → PrngReg)

/-- The host's bias stage as one term of the three bias parameters: `bmu + softplus brho * beps`, `softplus` in
    the host's spelling. -/
def hostBias (x3 x4 x6 : (⟨S4096, .f32⟩ : BufTy).Contents (Elt Ideal)) : (⟨S4096, .f32⟩ : BufTy).Contents (Elt Ideal) :=
  addf x3 (mulf (select
    (cmpf .une (subf x4 (broadcastInDim S4096 ![] bcast_S_S4096 (constant (F := Ideal) S_ .f32 0x00000000#32)))
      (subf x4 (broadcastInDim S4096 ![] bcast_S_S4096 (constant (F := Ideal) S_ .f32 0x00000000#32))))
    (addf x4 (broadcastInDim S4096 ![] bcast_S_S4096 (constant (F := Ideal) S_ .f32 0x00000000#32)))
    (addf (maximumf x4 (broadcastInDim S4096 ![] bcast_S_S4096 (constant (F := Ideal) S_ .f32 0x00000000#32)))
      (Host.log1p (Host.exp (Host.negf (Host.absf
        (subf x4 (broadcastInDim S4096 ![] bcast_S_S4096 (constant (F := Ideal) S_ .f32 0x00000000#32))))))))) x6)

set_option maxHeartbeats 400000 in
/-- After the host operations the bias row holds the host's bias stage of the launched bias parameters, reshaped
    to one row. -/
theorem bias_row_term (c : Dev nD) :
    W2 m ρ c (Proc.devRef .tc main_v3)
      = shapeCast S1x4096 (hostBias (m ((c : Thread nD τ).loc main_arg3)) (m ((c : Thread nD τ).loc main_arg4))
          (m ((c : Thread nD τ).loc main_arg6))) shapeCasts_S4096_S1x4096 := by
  unfold hostBias
  dsimp only [W2, W1, W0, hostOps0_1, hostOps0]
  after_results_simp <;> rfl

/-- One entry of the host's bias stage is the specification's bias: the host's spelling of `softplus` is
    `softplus`. -/
theorem hostBias_entry (x3 x4 x6 : (⟨S4096, .f32⟩ : BufTy).Contents (Elt Ideal)) (o : Fin 4096) :
    hostBias x3 x4 x6 (ix1 o) = Cert.BayesLinear.bias x3 x4 x6 (ix1 o) := by
  unfold hostBias
  have hz : ∀ j : S4096.Idx, broadcastInDim S4096 ![] bcast_S_S4096 (constant (F := Ideal) S_ .f32 0x00000000#32) j = 0 := fun j => by
    rw [broadcastInDim_apply _ bcast_S_S4096 (constant (F := Ideal) S_ .f32 0x00000000#32) j (fun a => a.elim0) (fun a => a.elim0)]
    exact Ideal.ofBits_zero_f32
  show x3 (ix1 o) + Scalar.select (Ideal.cmp .une (x4 (ix1 o) - _) (x4 (ix1 o) - _)) (x4 (ix1 o) + _)
      (max (x4 (ix1 o)) _ + Ideal.log1p (Ideal.exp (-(max (x4 (ix1 o) - _) (-(x4 (ix1 o) - _)))))) * x6 (ix1 o) = _
  rw [hz, Cert.BayesLinear.softplus_neg_form]
  rfl

/-- The second region finds the bias row holding the specification's bias, laid out as a row. -/
theorem V3_v3 (c : Dev nD) :
    V3 m ρ c main_v3 = Cert.BayesLinear.asRow (Cert.BayesLinear.bias (m ((c : Thread nD τ).loc main_arg3))
      (m ((c : Thread nD τ).loc main_arg4)) (m ((c : Thread nD τ).loc main_arg6))) := by
  refine ((W3_of_ne m ρ c main_v3 (by decide)).trans (bias_row_term m ρ c)).trans ?_
  refine funext fun (j : S1x4096.Idx) => ?_
  obtain ⟨u, o, rfl⟩ : ∃ (u : Fin 1) (o : Fin 4096), j = ix2 u o := ⟨j 0, j 1, eq_ix2 j⟩
  rw [shapeCast_a_1a_apply, hostBias_entry]
  rfl

end Cert.KernelIdeal.HostBias

end
-- ==== Proof.LibAxisTiles.lean ====
/-
  An axis cut into consecutive tiles of equal width, and a sum over the axis regrouped tile by tile.

  An axis of extent `N = Tn · R` is the disjoint union of `Tn` consecutive tiles of width `R`: coordinate
  `R · s + r` is position `r` of tile `s`. A sum over the axis, in any commutative additive monoid, is therefore the
  sum over the tiles of the sums inside each tile. This is the law by which a contraction accumulated block by block
  (one block of the contracted axis per grid point or loop trip) equals the contraction taken whole; it needs no
  finiteness of the terms, so it holds on the extended reals as it stands.
-/
import Mathlib.Algebra.BigOperators.Fin

namespace Cert.LibAxisTiles

open scoped BigOperators

variable {Tn R N : ℕ}

/-- Position `r` of tile `s` on an axis of extent `N = Tn · R` cut into `Tn` consecutive tiles of width `R`:
    the coordinate `R · s + r`. -/
def tileIdx (hN : N = Tn * R) (s : Fin Tn) (r : Fin R) : Fin N :=
  ⟨R * s.val + r.val, by
    subst hN
    calc R * s.val + r.val < R * s.val + R := Nat.add_lt_add_left r.isLt _
      _ = R * (s.val + 1) := (Nat.mul_succ R s.val).symm
      _ ≤ R * Tn := Nat.mul_le_mul_left R s.isLt
      _ = Tn * R := Nat.mul_comm R Tn⟩

/-- The coordinate of position `r` of tile `s`. -/
@[simp] theorem tileIdx_val (hN : N = Tn * R) (s : Fin Tn) (r : Fin R) : (tileIdx hN s r).val = R * s.val + r.val := rfl

/-- A sum over the axis is the sum over the tiles of the sums inside each tile. -/
theorem sum_tiles {β : Type*} [AddCommMonoid β] (hN : N = Tn * R) (a : Fin N → β) :
    ∑ f : Fin N, a f = ∑ s : Fin Tn, ∑ r : Fin R, a (tileIdx hN s r) := by
  subst hN
  rw [← Equiv.sum_comp finProdFinEquiv a, Fintype.sum_prod_type]
  refine Finset.sum_congr rfl fun s _ => Finset.sum_congr rfl fun r _ => congrArg a (Fin.ext ?_)
  show r.val + R * s.val = R * s.val + r.val
  exact Nat.add_comm _ _

end Cert.LibAxisTiles
-- ==== Proof.TileSum.lean ====
/-
  The contracted axis cut into 8 tiles of 512, and the accumulation over the tiles.

  Entry `(r, o)` of `x · wᵀ` is `∑ i < 4096, x r i * w o i`. Cutting the axis into 8 consecutive tiles of width
  512, tile `kb` contributes `∑ kk < 512, x r (512·kb + kk) * w o (512·kb + kk)`, and the contributions of the 8 tiles
  add up to the whole sum — in any order and grouping, since addition of extended reals is commutative and
  associative; no finiteness is needed. The output is produced in four 2048-by-2048 blocks, block `b` holding rows
  `2048·(b / 2) + p` and columns `2048·(b % 2) + q`.
-/
import proofs.«162152_j8169027797260_2_alg».proof.Proof.Spec
import proofs.«162152_j8169027797260_2_alg».proof.Proof.LibAxisTiles
import Mathlib.Algebra.BigOperators.Fin

noncomputable section

namespace Cert.BayesLinear

open Idealize.ShloMosaic Idealize.ShloMosaic.ValueIdx
open scoped BigOperators

/-- Position `kk` of tile `kb` of the contracted axis: `512·kb + kk` (reduced mod 4096 so that it is a coordinate for
    every `kb`; for `kb < 8` the reduction does nothing). -/
def kCol (kb : ℕ) (kk : Fin 512) : Fin 4096 := ⟨(512 * kb + kk.val) % 4096, Nat.mod_lt _ (by decide)⟩

/-- Row `p` of output block `b`: `2048·(b / 2) + p` (mod 4096, as above). -/
def blkRow (b : ℕ) (p : Fin 2048) : Fin 4096 := ⟨(2048 * (b / 2) + p.val) % 4096, Nat.mod_lt _ (by decide)⟩

/-- Column `q` of output block `b`: `2048·(b % 2) + q`. -/
def blkCol (b : ℕ) (q : Fin 2048) : Fin 4096 := ⟨(2048 * (b % 2) + q.val) % 4096, Nat.mod_lt _ (by decide)⟩

/-- Tile `kb`'s contribution to entry `(r, o)` of `x · wᵀ`. -/
def tileSum (x w : Mat.Idx → EReal) (r o : Fin 4096) (kb : ℕ) : EReal :=
  ∑ kk : Fin 512, x (ix2 r (kCol kb kk)) * w (ix2 o (kCol kb kk))

/-- The 8 tiles' contributions add up to the whole inner product. -/
theorem sum_tileSum (x w : Mat.Idx → EReal) (r o : Fin 4096) :
    ∑ kb ∈ Finset.range 8, tileSum x w r o kb = ∑ i : Fin 4096, x (ix2 r i) * w (ix2 o i) := by
  rw [Cert.LibAxisTiles.sum_tiles (show 4096 = 8 * 512 from rfl) (fun i => x (ix2 r i) * w (ix2 o i)),
    ← Fin.sum_univ_eq_sum_range (fun kb => tileSum x w r o kb) 8]
  refine Finset.sum_congr rfl fun s _ => Finset.sum_congr rfl fun kk _ => ?_
  have e : kCol s.val kk = Cert.LibAxisTiles.tileIdx (show 4096 = 8 * 512 from rfl) s kk :=
    Fin.ext (by
      show (512 * s.val + kk.val) % 4096 = 512 * s.val + kk.val
      have hs := s.isLt; have hk := kk.isLt; omega)
  rw [e]

/-- Every row of the output lies in one of the four blocks. -/
theorem row_in_block (t : Fin 4096) (b : ℕ) (hb : b / 2 = t.val / 2048) :
    blkRow b ⟨t.val % 2048, Nat.mod_lt _ (by decide)⟩ = t :=
  Fin.ext (by show (2048 * (b / 2) + t.val % 2048) % 4096 = t.val; have := t.isLt; omega)

/-- Every column of the output lies in one of the four blocks. -/
theorem col_in_block (o : Fin 4096) (b : ℕ) (hb : b % 2 = o.val / 2048) :
    blkCol b ⟨o.val % 2048, Nat.mod_lt _ (by decide)⟩ = o :=
  Fin.ext (by show (2048 * (b % 2) + o.val % 2048) % 4096 = o.val; have := o.isLt; omega)

end Cert.BayesLinear

end
-- ==== Proof.GemmBlocks.lean ====
/-
  Which entries of the arrays a grid point of the matrix-product region reads.

  The grid is 2 by 2 by 8; point `t` (in launch order) has output block `b = t / 8` (block row `b / 2`, block column
  `b % 2`) and contraction step `t % 8`. At the point, entry `(p, kk)` of the `x` block is `x` at row
  `2048·(b / 2) + p` and column `512·(t % 8) + kk`; entry `(q, kk)` of the weight block is the weight at row
  `2048·(b % 2) + q` and the same column; entry `(0, q)` of the bias block is the bias row at column
  `2048·(b % 2) + q`. (A block's coordinate is the block index times the block size plus the coordinate inside.)
-/
import proofs.«162152_j8169027797260_2_alg».proof.Proof.Gen.KernelIdeal.Frame
import proofs.«162152_j8169027797260_2_alg».proof.Proof.Spec
import proofs.«162152_j8169027797260_2_alg».proof.Proof.TileSum
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx
open Idealize.ShloMosaic.Pipeline (Dat)
open scoped BigOperators

namespace Cert.KernelIdeal.GemmRegion

open Cert.KernelIdeal Cert.KernelIdeal.Gen

open Cert.BayesLinear (kCol blkRow blkCol)

/-- The index maps of the four windows, decided once over the 32 grid points. -/
theorem idx_facts : ∀ t : Fin cfg1.N,
    win1_0.index t (0 : Fin 2) = t.val / 16 ∧ win1_0.index t (1 : Fin 2) = t.val % 8
    ∧ win1_1.index t (0 : Fin 2) = t.val / 8 % 2 ∧ win1_1.index t (1 : Fin 2) = t.val % 8
    ∧ win1_2.index t (0 : Fin 2) = 0 ∧ win1_2.index t (1 : Fin 2) = t.val / 8 % 2
    ∧ win1_3.index t (0 : Fin 2) = t.val / 16 ∧ win1_3.index t (1 : Fin 2) = t.val / 8 % 2 :=
  (by decide +kernel : ∀ t : Fin grid1.N, _)

variable (V : (c : Dev nD) → (b : Ref sig .tc) → Buf (Elt Ideal) ((c : Thread nD τ).loc b)) (c : Dev nD)

/-- The `x` block at a point, at an entry. -/
theorem xblk_entry (t : Fin cfg1.N) (p : Fin 2048) (kk : Fin 512) :
    (iblk1 V c 0 t : Vec Ideal S2048x512 .f32) (ix2 p kk)
      = V c main_arg0 (ix2 (blkRow (t.val / 8) p) (kCol (t.val % 8) kk)) := by
  obtain ⟨e0, e1, -⟩ := idx_facts t
  have hN : t.val < 32 := lt_of_lt_of_eq t.isLt (show cfg1.N = 32 from N_1)
  unfold iblk1
  rw [View.read_apply]
  show V c main_arg0 (((cfg1.win 0).blk t).view.emb (ix2 p kk)) = V c main_arg0 _
  refine congrArg (V c main_arg0) (funext fun a => Fin.ext ?_)
  match a with
  | ⟨0, _⟩ =>
    show win1_0.index t (0 : Fin 2) * 2048 + 1 * p.val = (2048 * (t.val / 8 / 2) + p.val) % 4096
    rw [e0]; have := p.isLt; omega
  | ⟨1, _⟩ =>
    show win1_0.index t (1 : Fin 2) * 512 + 1 * kk.val = (512 * (t.val % 8) + kk.val) % 4096
    rw [e1]; have := kk.isLt; omega

/-- The weight block at a point, at an entry. -/
theorem wblk_entry (t : Fin cfg1.N) (q : Fin 2048) (kk : Fin 512) :
    (iblk1 V c 1 t : Vec Ideal S2048x512 .bf16) (ix2 q kk)
      = V c main_v4 (ix2 (blkCol (t.val / 8) q) (kCol (t.val % 8) kk)) := by
  obtain ⟨-, -, e0, e1, -⟩ := idx_facts t
  have hN : t.val < 32 := lt_of_lt_of_eq t.isLt (show cfg1.N = 32 from N_1)
  unfold iblk1
  rw [View.read_apply]
  show V c main_v4 (((cfg1.win 1).blk t).view.emb (ix2 q kk)) = V c main_v4 _
  refine congrArg (V c main_v4) (funext fun a => Fin.ext ?_)
  match a with
  | ⟨0, _⟩ =>
    show win1_1.index t (0 : Fin 2) * 2048 + 1 * q.val = (2048 * (t.val / 8 % 2) + q.val) % 4096
    rw [e0]; have := q.isLt; omega
  | ⟨1, _⟩ =>
    show win1_1.index t (1 : Fin 2) * 512 + 1 * kk.val = (512 * (t.val % 8) + kk.val) % 4096
    rw [e1]; have := kk.isLt; omega

/-- The bias block at a point, at an entry of its one row. -/
theorem bblk_entry (t : Fin cfg1.N) (q : Fin 2048) :
    (iblk1 V c 2 t : Vec Ideal S1x2048 .f32) (ix2 (0 : Fin 1) q)
      = V c main_v3 (ix2 (0 : Fin 1) (blkCol (t.val / 8) q)) := by
  obtain ⟨-, -, -, -, e0, e1, -⟩ := idx_facts t
  have hN : t.val < 32 := lt_of_lt_of_eq t.isLt (show cfg1.N = 32 from N_1)
  unfold iblk1
  rw [View.read_apply]
  show V c main_v3 (((cfg1.win 2).blk t).view.emb (ix2 (0 : Fin 1) q)) = V c main_v3 _
  refine congrArg (V c main_v3) (funext fun a => Fin.ext ?_)
  match a with
  | ⟨0, _⟩ =>
    show win1_2.index t (0 : Fin 2) * 1 + 1 * 0 = 0
    rw [e0]
  | ⟨1, _⟩ =>
    show win1_2.index t (1 : Fin 2) * 2048 + 1 * q.val = (2048 * (t.val / 8 % 2) + q.val) % 4096
    rw [e1]; have := q.isLt; omega

end Cert.KernelIdeal.GemmRegion

end
-- ==== Proof.LibTransposedMatmul.lean ====
/-
  A matrix product against a transposed right operand, read at an entry.

  For the dimension numbers "contract the left operand's second axis with the right operand's SECOND axis" an `[M, K]` by
  `[N, K]` product, accumulated into a zero array, has at row `p` and column `c` the entry `∑ k, W p k · X c k` over the
  extended reals (the product `W · Xᵀ`): the contraction position is its one coordinate `k`, the left operand is read at
  `(p, k)` and the right one at `(c, k)`. The same reading holds of a host `dot_general` with those dimension numbers.
-/
import Idealize.ShloMosaic.PureOps.Ideal.Laws
import Idealize.ShloMosaic.Lib.ValueIdx

noncomputable section

namespace Cert.LibTransposedMatmul

open Idealize.ShloMosaic Idealize.ShloMosaic.ValueIdx
open scoped BigOperators

variable (M K N : ℕ)

/-- The left operand's row coordinate is the result's row. -/
theorem lhs_row (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl

/-- The left operand's column coordinate is the contraction position. -/
theorem lhs_col (j : (⟨2, ![M, N]⟩ : Shape).Idx) (q : (DotDims.transposedRhs M K N).contr.Idx) :
    ((DotDims.transposedRhs M K N).lhsIdx j q 1).val = (q ⟨0, Nat.one_pos⟩).val :=
  (DotDims.transposedRhs M K N).lhsIdx_val_of_single rfl j q

/-- The right operand's row coordinate is the result's column. -/
theorem rhs_row (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl

/-- The right operand's column coordinate is the contraction position. -/
theorem rhs_col (j : (⟨2, ![M, N]⟩ : Shape).Idx) (q : (DotDims.transposedRhs M K N).contr.Idx) :
    ((DotDims.transposedRhs M K N).rhsIdx j q 1).val = (q ⟨0, Nat.one_pos⟩).val :=
  (DotDims.transposedRhs M K N).rhsIdx_val_of_single rfl j q

/-- The sum over the contraction positions, re-indexed by the one coordinate. -/
theorem sum_contr {φ₁ φ₂ : FTy} (W : FVec Ideal ⟨2, ![M, K]⟩ φ₁) (X : FVec Ideal ⟨2, ![N, K]⟩ φ₂) (p : Fin M) (c : Fin N) :
    (∑ q : (DotDims.transposedRhs M K N).contr.Idx,
        W ((DotDims.transposedRhs M K N).lhsIdx (ix2 p c) q) * X ((DotDims.transposedRhs M K N).rhsIdx (ix2 p c) q))
      = ∑ k : Fin K, W (ix2 p k) * X (ix2 c k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p c) ((contrEquiv1 (DotDims.transposedRhs M K N) K rfl rfl).symm k) = ix2 p k :=
    funext fun a => Fin.ext (by
      match a with
      | ⟨0, _⟩ => exact lhs_row M K N _ _
      | ⟨1, _⟩ => exact (lhs_col M K N _ _).trans hk)
  have er : (DotDims.transposedRhs M K N).rhsIdx (ix2 p c) ((contrEquiv1 (DotDims.transposedRhs M K N) K rfl rfl).symm k) = ix2 c k :=
    funext fun a => Fin.ext (by
      match a with
      | ⟨0, _⟩ => exact rhs_row M K N _ _
      | ⟨1, _⟩ => exact (rhs_col M K N _ _).trans hk)
  rw [el, er]

/-- A kernel's product against a transposed right operand into a zero accumulator, at an entry. -/
theorem matmul_zero_apply {φ₁ φ₂ : FTy} (prec : Option ContractPrecision) (W : FVec Ideal ⟨2, ![M, K]⟩ φ₁)
    (X : FVec Ideal ⟨2, ![N, K]⟩ φ₂) (p : Fin M) (c : Fin N) :
    matmul (DotDims.transposedRhs M K N) prec W X (constant (F := Ideal) ⟨2, ![M, N]⟩ .f32 0x00000000#32) (ix2 p c)
      = ∑ k : Fin K, W (ix2 p k) * X (ix2 c k) := by
  simp only [matmul]
  rw [Ideal.matmul_constant_zero_apply]
  exact sum_contr M K N W X p c

/-- A host product against a transposed right operand, at an entry. -/
theorem dotGeneral_apply {φ₁ φ₂ : FTy} (prec : Option ContractPrecision) (W : FVec Ideal ⟨2, ![M, K]⟩ φ₁)
    (X : FVec Ideal ⟨2, ![N, K]⟩ φ₂) (p : Fin M) (c : Fin N) :
    Host.dotGeneral (DotDims.transposedRhs M K N) prec W X (ix2 p c) = ∑ k : Fin K, W (ix2 p k) * X (ix2 c k) := by
  simp only [Host.dotGeneral]
  rw [Ideal.dotGeneral_apply]
  exact sum_contr M K N W X p c

end Cert.LibTransposedMatmul

end
-- ==== Proof.GemmPieces.lean ====
/-
  What one grid point of the matrix-product region leaves in the output block.

  The region accumulates the product over the contracted axis in 8 steps per output block. At a step the body
  loads the block of `x` (2048 by 512), the block of the weight (2048 by 512) and the output block's running
  contents `acc` (2048 by 2048), and stores `acc + x_blk · w_blkᵀ`. At the first step of a block it first stores
  zeros, so the running contents it reads are the zero block; at the last step it then reads the block back and adds
  the bias row to every row. The three cases' stores, read back as one value each:
    first step:   0   + x_blk · w_blkᵀ
    middle step:  acc + x_blk · w_blkᵀ
    last step:    (acc + x_blk · w_blkᵀ) + bias row.
-/
import proofs.«162152_j8169027797260_2_alg».proof.Proof.Gen.KernelIdeal.Frame
import proofs.«162152_j8169027797260_2_alg».proof.Proof.Spec
import proofs.«162152_j8169027797260_2_alg».proof.Proof.LibTransposedMatmul
import proofs.«162152_j8169027797260_2_alg».proof.Proof.LibAxisTiles
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem Idealize.ShloMosaic.ValueIdx
open Idealize.ShloMosaic.Pipeline (Dat)
open scoped BigOperators

namespace Cert.KernelIdeal.GemmRegion

open Cert.KernelIdeal Cert.KernelIdeal.Gen

variable {F : FTy → Type} [FloatOps F]

theorem hz : (![0, 0] : Fin 2 → Nat) = fun _ => 0 := funext fun a => by fin_cases a <;> rfl

/-- A middle step leaves `acc + x_blk · w_blkᵀ`: its one store covers the block, and its loads read whole buffers. -/
theorem out_B (c : Dev nD) (i : grid1.Coords) (a3 : Memref sig .tc .vmem S2048x512 .f32) (h3 : a3.IsWhole)
    (a4 : Memref sig .tc .vmem S2048x512 .bf16) (h4 : a4.IsWhole) (a5 : Memref sig .tc .vmem S1x2048 .f32) (h5 : a5.IsWhole)
    (a6 : Memref sig .tc .vmem S2048x2048 .f32) (h6 : a6.IsWhole) (hc0 : ¬cond1_0 i) (hc1 : ¬cond1_1 i)
    (x0 : Vec F S2048x512 .f32) (x1 : Vec F S2048x512 .bf16) (x2 : Vec F S1x2048 .f32) (xo : Vec F S2048x2048 .f32) :
    out1_B_3 c i a3 h3 a4 h4 a5 h5 a6 h6 hc0 hc1 x0 x1 x2 xo = k1_pay2 x0 xo x1 := by
  unfold out1_B_3
  rw [View.read_writes_eq_canon _ _ _ (cover1_B_3 c i a3 h3 a4 h4 a5 h5 a6 h6 hc0 hc1 x0 x1 x2 xo)]
  unfold kernelRun1_B
  dsimp only
  rw [View.canon_unit_zero hz]
  simp only [View.readAt_eq_ld, h3.read_unread, h4.read_unread, h6.read_unread, View.ld_unit_zero (S := S2048x512) hz,
    View.ld_unit_zero (S := S2048x2048) hz]

/-- The first step of a block leaves `0 + x_blk · w_blkᵀ`: the running contents it reads are the zeros it has just
    stored. -/
theorem out_A (c : Dev nD) (i : grid1.Coords) (a3 : Memref sig .tc .vmem S2048x512 .f32) (h3 : a3.IsWhole)
    (a4 : Memref sig .tc .vmem S2048x512 .bf16) (h4 : a4.IsWhole) (a5 : Memref sig .tc .vmem S1x2048 .f32) (h5 : a5.IsWhole)
    (a6 : Memref sig .tc .vmem S2048x2048 .f32) (h6 : a6.IsWhole) (hc0 : cond1_0 i) (hc1 : ¬cond1_1 i)
    (x0 : Vec F S2048x512 .f32) (x1 : Vec F S2048x512 .bf16) (x2 : Vec F S1x2048 .f32) :
    out1_A_3 c i a3 h3 a4 h4 a5 h5 a6 h6 hc0 hc1 x0 x1 x2 = k1_pay2 x0 (k1_pay1 (F := F)) x1 := by
  unfold out1_A_3
  rw [View.read_writes_eq_canon _ _ _ (cover1_A_3 c i a3 h3 a4 h4 a5 h5 a6 h6 hc0 hc1 x0 x1 x2)]
  unfold kernelRun1_A
  dsimp only
  sl_unfold_words
  rw [View.canon_cons_unit_zero (S := S2048x2048) hz, View.readCov_unit_zero (S := S2048x2048) _ hz]
  simp only [View.readAt_eq_ld, h3.read_unread, h4.read_unread, View.ld_unit_zero (S := S2048x512) hz,
    View.ld_unit_zero (S := S2048x2048) hz]

/-- The last step of a block leaves `(acc + x_blk · w_blkᵀ) + bias row`: the second store adds the bias row to the
    block the first store has just written. -/
theorem out_C (c : Dev nD) (i : grid1.Coords) (a3 : Memref sig .tc .vmem S2048x512 .f32) (h3 : a3.IsWhole)
    (a4 : Memref sig .tc .vmem S2048x512 .bf16) (h4 : a4.IsWhole) (a5 : Memref sig .tc .vmem S1x2048 .f32) (h5 : a5.IsWhole)
    (a6 : Memref sig .tc .vmem S2048x2048 .f32) (h6 : a6.IsWhole) (hc0 : ¬cond1_0 i) (hc1 : cond1_1 i)
    (x0 : Vec F S2048x512 .f32) (x1 : Vec F S2048x512 .bf16) (x2 : Vec F S1x2048 .f32) (xo : Vec F S2048x2048 .f32) :
    out1_C_3 c i a3 h3 a4 h4 a5 h5 a6 h6 hc0 hc1 x0 x1 x2 xo = k1_pay3 (k1_pay2 x0 xo x1) x2 := by
  unfold out1_C_3
  rw [View.read_writes_eq_canon _ _ _ (cover1_C_3 c i a3 h3 a4 h4 a5 h5 a6 h6 hc0 hc1 x0 x1 x2 xo)]
  unfold kernelRun1_C
  dsimp only
  sl_unfold_words
  rw [View.canon_cons_unit_zero (S := S2048x2048) hz, View.readCov_unit_zero (S := S2048x2048) _ hz]
  simp only [View.readAt_eq_ld, h3.read_unread, h4.read_unread, h5.read_unread, h6.read_unread,
    View.ld_unit_zero (S := S2048x512) hz, View.ld_unit_zero (S := S2048x2048) hz, View.ld_unit_zero (S := S1x2048) hz]

end Cert.KernelIdeal.GemmRegion

end
-- ==== Proof.GemmEntry.lean ====
/-
  The three stored values of the matrix-product region, read at one entry, on the extended reals.

  At entry `(p, q)` of the 2048-by-2048 output block: the zero block is `0`; the accumulation step is
  `acc p q + ∑ kk < 512, x_blk p kk * w_blk q kk` (the product contracts the second axis of both blocks, into a zero
  accumulator; the change of float format of `x_blk` is the identity on the extended reals); the bias step adds entry
  `(0, q)` of the 1-by-2048 bias row to every row `p`.
-/
import proofs.«162152_j8169027797260_2_alg».proof.Proof.Gen.KernelIdeal.Frame
import proofs.«162152_j8169027797260_2_alg».proof.Proof.Spec
import proofs.«162152_j8169027797260_2_alg».proof.Proof.LibTransposedMatmul
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx
open Idealize.ShloMosaic.Pipeline (Dat)
open scoped BigOperators

namespace Cert.KernelIdeal.GemmRegion

open Cert.KernelIdeal Cert.KernelIdeal.Gen

/-- The stored zero block is `0` at every entry. -/
theorem zero_entry (y : S2048x2048.Idx) : k1_pay1 (F := Ideal) y = 0 := by
  unfold k1_pay1
  show Ideal.ofBits .f32 0x00000000#32 = 0
  exact Ideal.ofBits_zero_f32

/-- The accumulation step at entry `(p, q)`. -/
theorem acc_entry (v3 : Vec Ideal S2048x512 .f32) (v5 : Vec Ideal S2048x2048 .f32) (v7 : Vec Ideal S2048x512 .bf16)
    (p q : Fin 2048) :
    k1_pay2 v3 v5 v7 (ix2 p q) = v5 (ix2 p q) + ∑ kk : Fin 512, v3 (ix2 p kk) * v7 (ix2 q kk) := by
  unfold k1_pay2
  show shapeCast S2048x2048 v5 shapeCasts_S2048x2048_S2048x2048 (ix2 p q)
      + matmul (F := Ideal) dot_S2048x512_S2048x512_S2048x2048_1_1_0_0_n_n none (truncf .bf16 v3 bitsLt_bf16_f32)
          (shapeCast S2048x512 v7 shapeCasts_S2048x512_S2048x512) (constant (F := Ideal) S2048x2048 .f32 0x00000000#32) (ix2 p q) = _
  rw [shapeCast_self, shapeCast_self]
  exact congrArg (v5 (ix2 p q) + ·)
    (Cert.LibTransposedMatmul.matmul_zero_apply 2048 512 2048 none (truncf .bf16 v3 bitsLt_bf16_f32) v7 p q)

/-- The bias step at entry `(p, q)`. -/
theorem bias_entry (v15 : Vec Ideal S2048x2048 .f32) (v17 : Vec Ideal S1x2048 .f32) (p q : Fin 2048) :
    k1_pay3 v15 v17 (ix2 p q) = v15 (ix2 p q) + v17 (ix2 (0 : Fin 1) q) := by
  unfold k1_pay3
  show shapeCast S2048x2048 v15 shapeCasts_S2048x2048_S2048x2048 (ix2 p q)
      + broadcastTo S2048x2048 (shapeCast S1x2048 v17 shapeCasts_S1x2048_S1x2048) broadcasts_S1x2048_S2048x2048 (ix2 p q) = _
  rw [shapeCast_self, shapeCast_self, broadcastTo_1b_ab_apply]

end Cert.KernelIdeal.GemmRegion

end
-- ==== Proof.GemmAccum.lean ====
/-
  The running contents of an output block of the matrix-product region, by induction on the grid point.

  After the point with output block `b` and contraction step `k < 7`, entry `(p, q)` of the output's staging buffer
  holds the first `k + 1` tiles' contributions to entry `(2048·(b / 2) + p, 2048·(b % 2) + q)` of `x · wᵀ`:
  the first step of a block starts from the zero block (`0 + a = a`), a middle step adds its tile to what the step
  before left in the same buffer. After the last step (`k = 7`) it holds all 8 tiles' contributions, which is the
  whole inner product, plus the bias at that column — the entry of the layer's result.
-/
import proofs.«162152_j8169027797260_2_alg».proof.Proof.Gen.KernelIdeal.Frame
import proofs.«162152_j8169027797260_2_alg».proof.Proof.Spec
import proofs.«162152_j8169027797260_2_alg».proof.Proof.TileSum
import proofs.«162152_j8169027797260_2_alg».proof.Proof.GemmPieces
import proofs.«162152_j8169027797260_2_alg».proof.Proof.GemmEntry
import proofs.«162152_j8169027797260_2_alg».proof.Proof.GemmBlocks
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx
open Idealize.ShloMosaic.Pipeline (Dat)
open scoped BigOperators

namespace Cert.KernelIdeal.GemmRegion

open Cert.KernelIdeal Cert.KernelIdeal.Gen

open Cert.BayesLinear (kCol blkRow blkCol tileSum sum_tileSum)

variable (V : (c : Dev nD) → (b : Ref sig .tc) → Buf (Elt Ideal) ((c : Thread nD τ).loc b)) (c : Dev nD)

/-- The tile a point contributes, read off the point's `x` block `xb` and weight block `wb`. -/
theorem tile_of_blocks (t : Fin cfg1.N) (p q : Fin 2048) (xb : Vec Ideal S2048x512 .f32) (wb : Vec Ideal S2048x512 .bf16)
    (hx : xb = iblk1 V c 0 t) (hw : wb = iblk1 V c 1 t) :
    ∑ kk : Fin 512, xb (ix2 p kk) * wb (ix2 q kk)
      = tileSum (V c main_arg0) (V c main_v4) (blkRow (t.val / 8) p) (blkCol (t.val / 8) q) (t.val % 8) := by
  subst hx hw
  unfold tileSum
  exact Finset.sum_congr rfl fun kk _ => by rw [xblk_entry V c t p kk, wblk_entry V c t q kk]

/-- The first step of a block leaves its own tile. -/
theorem first_step (t : Fin cfg1.N) (h0 : t.val % 8 = 0) (h1 : ¬t.val % 8 = 7) (p q : Fin 2048) :
    (outsAt1 V c t.val t.isLt : Vec Ideal S2048x2048 .f32) (ix2 p q)
      = tileSum (V c main_arg0) (V c main_v4) (blkRow (t.val / 8) p) (blkCol (t.val / 8) q) (t.val % 8) := by
  rw [(outsAt1_A V c t h0 h1).trans (out_A c (grid1.coords t) (ms1_0 t) (hs1_0 t) (ms1_1 t) (hs1_1 t) (ms1_2 t) (hs1_2 t)
    (ms1_3 t) (hs1_3 t) ((hcond1_0 t).mpr h0) (fun h => h1 ((hcond1_1 t).mp h)) (iblk1 V c 0 t) (iblk1 V c 1 t) (iblk1 V c 2 t))]
  refine (acc_entry (iblk1 V c 0 t) (k1_pay1 (F := Ideal)) (iblk1 V c 1 t) p q).trans ?_
  rw [zero_entry, zero_add]
  exact tile_of_blocks V c t p q (iblk1 V c 0 t) (iblk1 V c 1 t) rfl rfl

/-- A middle step adds its tile to what the point before left. -/
theorem middle_step (t : Fin cfg1.N) (h0 : ¬t.val % 8 = 0) (h1 : ¬t.val % 8 = 7) (p q : Fin 2048) :
    (outsAt1 V c t.val t.isLt : Vec Ideal S2048x2048 .f32) (ix2 p q)
      = (outsAt1 V c (t.val - 1) (Nat.lt_of_le_of_lt (Nat.sub_le _ _) t.isLt) : Vec Ideal S2048x2048 .f32) (ix2 p q)
        + tileSum (V c main_arg0) (V c main_v4) (blkRow (t.val / 8) p) (blkCol (t.val / 8) q) (t.val % 8) := by
  rw [(outsAt1_B V c t h0 h1).trans (out_B c (grid1.coords t) (ms1_0 t) (hs1_0 t) (ms1_1 t) (hs1_1 t) (ms1_2 t) (hs1_2 t)
    (ms1_3 t) (hs1_3 t) (fun h => h0 ((hcond1_0 t).mp h)) (fun h => h1 ((hcond1_1 t).mp h)) (iblk1 V c 0 t) (iblk1 V c 1 t) (iblk1 V c 2 t)
    (outsAt1 V c (t.val - 1) (Nat.lt_of_le_of_lt (Nat.sub_le _ _) t.isLt)))]
  refine (acc_entry (iblk1 V c 0 t) (outsAt1 V c (t.val - 1) (Nat.lt_of_le_of_lt (Nat.sub_le _ _) t.isLt)) (iblk1 V c 1 t) p q).trans ?_
  rw [tile_of_blocks V c t p q (iblk1 V c 0 t) (iblk1 V c 1 t) rfl rfl]

/-- The last step adds its tile and then the bias. -/
theorem last_step (t : Fin cfg1.N) (h0 : ¬t.val % 8 = 0) (h1 : t.val % 8 = 7) (p q : Fin 2048) :
    (outsAt1 V c t.val t.isLt : Vec Ideal S2048x2048 .f32) (ix2 p q)
      = ((outsAt1 V c (t.val - 1) (Nat.lt_of_le_of_lt (Nat.sub_le _ _) t.isLt) : Vec Ideal S2048x2048 .f32) (ix2 p q)
          + tileSum (V c main_arg0) (V c main_v4) (blkRow (t.val / 8) p) (blkCol (t.val / 8) q) (t.val % 8))
        + V c main_v3 (ix2 (0 : Fin 1) (blkCol (t.val / 8) q)) := by
  rw [(outsAt1_C V c t h0 h1).trans (out_C c (grid1.coords t) (ms1_0 t) (hs1_0 t) (ms1_1 t) (hs1_1 t) (ms1_2 t) (hs1_2 t)
    (ms1_3 t) (hs1_3 t) (fun h => h0 ((hcond1_0 t).mp h)) ((hcond1_1 t).mpr h1) (iblk1 V c 0 t) (iblk1 V c 1 t) (iblk1 V c 2 t)
    (outsAt1 V c (t.val - 1) (Nat.lt_of_le_of_lt (Nat.sub_le _ _) t.isLt)))]
  refine (bias_entry (k1_pay2 (iblk1 V c 0 t) (outsAt1 V c (t.val - 1) (Nat.lt_of_le_of_lt (Nat.sub_le _ _) t.isLt)) (iblk1 V c 1 t))
    (iblk1 V c 2 t) p q).trans ?_
  rw [acc_entry (iblk1 V c 0 t) (outsAt1 V c (t.val - 1) (Nat.lt_of_le_of_lt (Nat.sub_le _ _) t.isLt)) (iblk1 V c 1 t) p q,
    tile_of_blocks V c t p q (iblk1 V c 0 t) (iblk1 V c 1 t) rfl rfl, bblk_entry V c t q]

/-- After contraction step `k < 7` of a block the buffer holds the first `k + 1` tiles' contributions. -/
theorem running (n : ℕ) (h : n < cfg1.N) (h7 : ¬n % 8 = 7) (p q : Fin 2048) :
    (outsAt1 V c n h : Vec Ideal S2048x2048 .f32) (ix2 p q)
      = ∑ kb ∈ Finset.range (n % 8 + 1), tileSum (V c main_arg0) (V c main_v4) (blkRow (n / 8) p) (blkCol (n / 8) q) kb := by
  induction n with
  | zero =>
    rw [first_step V c ⟨0, h⟩ rfl (by show ¬(0 : ℕ) % 8 = 7; decide) p q]
    exact (Finset.sum_range_one _).symm
  | succ n ih =>
    by_cases h0 : (n + 1) % 8 = 0
    · rw [first_step V c ⟨n + 1, h⟩ h0 h7 p q]
      show tileSum _ _ _ _ ((n + 1) % 8) = _
      rw [h0]
      exact (Finset.sum_range_one _).symm
    · rw [middle_step V c ⟨n + 1, h⟩ h0 h7 p q]
      show (outsAt1 V c n _ : Vec Ideal S2048x2048 .f32) (ix2 p q) + tileSum _ _ (blkRow ((n + 1) / 8) p) (blkCol ((n + 1) / 8) q) ((n + 1) % 8) = _
      rw [ih (Nat.lt_of_succ_lt h) (by omega), show (n + 1) / 8 = n / 8 from by omega, show (n + 1) % 8 + 1 = (n % 8 + 1) + 1 from by omega,
        Finset.sum_range_succ _ (n % 8 + 1), show n % 8 + 1 = (n + 1) % 8 from by omega]

/-- After the last step of a block the buffer holds the layer's result at the block's entries. -/
theorem finished (t : Fin cfg1.N) (h1 : t.val % 8 = 7) (p q : Fin 2048) :
    (outsAt1 V c t.val t.isLt : Vec Ideal S2048x2048 .f32) (ix2 p q)
      = Cert.BayesLinear.gemmAt (V c main_arg0) (V c main_v4) (V c main_v3) (blkRow (t.val / 8) p) (blkCol (t.val / 8) q) := by
  have hN : t.val < 32 := lt_of_lt_of_eq t.isLt (show cfg1.N = 32 from N_1)
  rw [last_step V c t (by omega) h1 p q, running V c (t.val - 1) _ (by omega) p q,
    show (t.val - 1) / 8 = t.val / 8 from by omega, show (t.val - 1) % 8 + 1 = 7 from by omega, h1,
    ← Finset.sum_range_succ _ 7, sum_tileSum]
  rfl

end Cert.KernelIdeal.GemmRegion

end
-- ==== Proof.GemmArray.lean ====
/-
  The output array of the matrix-product region after its last grid point.

  An output block is written back to the array once, after the last contraction step of the block (the points
  `t` with `t % 8 = 7`), and what is written back is the layer's result at the block's entries. The four blocks
  tile the 4096-by-4096 array: entry `(r, o)` lies in the block of the point `16·(r / 2048) + 8·(o / 2048) + 7`.
  So the array ends holding the layer's result of the region's three input arrays.
-/
import proofs.«162152_j8169027797260_2_alg».proof.Proof.Gen.KernelIdeal.Frame
import proofs.«162152_j8169027797260_2_alg».proof.Proof.Spec
import proofs.«162152_j8169027797260_2_alg».proof.Proof.TileSum
import proofs.«162152_j8169027797260_2_alg».proof.Proof.GemmBlocks
import proofs.«162152_j8169027797260_2_alg».proof.Proof.GemmAccum
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx
open Idealize.ShloMosaic.Pipeline (Dat)
open scoped BigOperators

namespace Cert.KernelIdeal.GemmRegion

open Cert.KernelIdeal Cert.KernelIdeal.Gen

open Cert.BayesLinear (kCol blkRow blkCol)

variable (V : (c : Dev nD) → (b : Ref sig .tc) → Buf (Elt Ideal) ((c : Thread nD τ).loc b)) (c : Dev nD)

/-- What a flushing point writes back is its block of the layer's result. -/
theorem flushed_eq (t : Fin cfg1.N) (hf : (cfg1.win 3).flush t = true) :
    (dat1 V c).flushed 3 t
      = ((cfg1.win 3).blk t).view.read (Elt Ideal) (Cert.BayesLinear.gemm (V c main_arg0) (V c main_v4) (V c main_v3)) := by
  have h1 : t.val % 8 = 7 := (flush1_3 t).mp hf
  obtain ⟨-, -, -, -, -, -, e0, e1⟩ := idx_facts t
  have hN : t.val < 32 := lt_of_lt_of_eq t.isLt (show cfg1.N = 32 from N_1)
  show (cfg1.win 3).cut (grid1.coords t) ((dat1 V c).after 3 t) = _
  rw [after1_3]
  refine funext fun (y : S2048x2048.Idx) => ?_
  obtain ⟨p, q, rfl⟩ : ∃ (p q : Fin 2048), y = ix2 p q := ⟨y 0, y 1, eq_ix2 y⟩
  rw [View.read_apply]
  show (outsAt1 V c t.val t.isLt : Vec Ideal S2048x2048 .f32) (ix2 p q) = _
  rw [finished V c t h1 p q]
  have hemb : ((cfg1.win 3).blk t).view.emb (ix2 p q) = ix2 (blkRow (t.val / 8) p) (blkCol (t.val / 8) q) :=
    funext fun a => Fin.ext (by
      match a with
      | ⟨0, _⟩ =>
        show win1_3.index t (0 : Fin 2) * 2048 + 1 * p.val = (2048 * (t.val / 8 / 2) + p.val) % 4096
        rw [e0]; have := p.isLt; omega
      | ⟨1, _⟩ =>
        show win1_3.index t (1 : Fin 2) * 2048 + 1 * q.val = (2048 * (t.val / 8 % 2) + q.val) % 4096
        rw [e1]; have := q.isLt; omega)
  rw [hemb]
  rfl

/-- An entry of the array is in a point's block iff each coordinate is in the block's range on its axis. -/
theorem mem_blk (t : Fin cfg1.N) (i : S4096x4096.Idx) :
    i ∈ ((cfg1.win 3).blk t).view.set
      ↔ ∀ a : Fin 2, win1_3.index t a * S2048x2048.size a ≤ (i a).val ∧ (i a).val < win1_3.index t a * S2048x2048.size a + S2048x2048.size a := by
  show i ∈ ((View.whole main_v5).slice (win1_3.rect t)).set ↔ _
  rw [View.set_slice_whole, Rect.mem_set_unit]
  exact Iff.rfl

/-- The region's output array after the last point: the layer's result of the three input arrays. -/
theorem gemm_array :
    (dat1 V c).arrAt 3 cfg1.N = Cert.BayesLinear.gemm (V c main_arg0) (V c main_v4) (V c main_v3) :=
  (dat1 V c).arrAt_eq_of_cover 3 (Cert.BayesLinear.gemm (V c main_arg0) (V c main_v4) (V c main_v3))
    (fun t hf => flushed_eq V c t hf) fun (i : S4096x4096.Idx) => by
      have hi0 : (i 0).val < 4096 := (i 0).isLt
      have hi1 : (i 1).val < 4096 := (i 1).isLt
      let t : Fin cfg1.N := ⟨16 * ((i 0).val / 2048) + 8 * ((i 1).val / 2048) + 7,
        lt_of_lt_of_eq (by omega : 16 * ((i 0).val / 2048) + 8 * ((i 1).val / 2048) + 7 < 32) N_1.symm⟩
      have hv : t.val = 16 * ((i 0).val / 2048) + 8 * ((i 1).val / 2048) + 7 := rfl
      obtain ⟨-, -, -, -, -, -, e0, e1⟩ := idx_facts t
      refine ⟨t, (flush1_3 t).mpr (by rw [hv]; omega), ?_⟩
      rw [mem_blk]
      intro a
      match a with
      | ⟨0, _⟩ =>
        show win1_3.index t (0 : Fin 2) * 2048 ≤ (i 0).val ∧ (i 0).val < win1_3.index t (0 : Fin 2) * 2048 + 2048
        rw [e0, hv]; omega
      | ⟨1, _⟩ =>
        show win1_3.index t (1 : Fin 2) * 2048 ≤ (i 1).val ∧ (i 1).val < win1_3.index t (1 : Fin 2) * 2048 + 2048
        rw [e1, hv]; omega

end Cert.KernelIdeal.GemmRegion

end
-- ==== Proof.lean ====
/-
  A Bayesian linear layer: the kernel program against its reference, on the extended reals.

  Both programs compute, for token `t` and output feature `o`,
      out t o = (∑ i < 4096, x t i * (wmu o i + softplus (wrho o i) * weps o i)) + (bmu o + softplus (brho o) * beps o).
  The reference does it with host operations in one piece. The kernel program computes the bias with host
  operations, the reparameterised weight in a first pallas region (16 bands of 256 rows, each entry by entry), and the
  product in a second pallas region that accumulates, for each of four 2048-by-2048 output blocks, the contributions
  of 8 tiles of the contracted axis from a zero block, adding the bias row after the last tile. On the extended
  reals the two agree with no assumption on the inputs: the two spellings of softplus are one function, a change of
  float format is the identity, and a sum may be regrouped tile by tile because addition is commutative and
  associative. The three frame claims are the generated frames (the reference's: its run with the result dropped);
  the idealization rewrote nothing, so `preserves` is `True`.
-/
import proofs.«162152_j8169027797260_2_alg».proof.Defs
import proofs.«162152_j8169027797260_2_alg».proof.Proof.Gen.Kernel
import proofs.«162152_j8169027797260_2_alg».proof.Proof.Gen.Kernel.Skeleton
import proofs.«162152_j8169027797260_2_alg».proof.Proof.Gen.Kernel.Launch
import proofs.«162152_j8169027797260_2_alg».proof.Proof.Gen.Kernel.Points
import proofs.«162152_j8169027797260_2_alg».proof.Proof.Gen.Kernel.Frame
import proofs.«162152_j8169027797260_2_alg».proof.Proof.Gen.KernelIdeal
import proofs.«162152_j8169027797260_2_alg».proof.Proof.Gen.KernelIdeal.Skeleton
import proofs.«162152_j8169027797260_2_alg».proof.Proof.Gen.KernelIdeal.Launch
import proofs.«162152_j8169027797260_2_alg».proof.Proof.Gen.KernelIdeal.Points
import proofs.«162152_j8169027797260_2_alg».proof.Proof.Gen.KernelIdeal.Frame
import proofs.«162152_j8169027797260_2_alg».proof.Proof.Gen.ReferenceIdeal
import proofs.«162152_j8169027797260_2_alg».proof.Proof.Gen.Pre_finite_inputs
import proofs.«162152_j8169027797260_2_alg».proof.Proof.Gen.ReferenceIdeal.Run
import proofs.«162152_j8169027797260_2_alg».proof.Proof.Gen.ReferenceIdeal.Read
import proofs.«162152_j8169027797260_2_alg».proof.Proof.Spec
import proofs.«162152_j8169027797260_2_alg».proof.Proof.RefValue
import proofs.«162152_j8169027797260_2_alg».proof.Proof.ValueRun
import proofs.«162152_j8169027797260_2_alg».proof.Proof.WeightRegion
import proofs.«162152_j8169027797260_2_alg».proof.Proof.HostArgs
import proofs.«162152_j8169027797260_2_alg».proof.Proof.HostBias
import proofs.«162152_j8169027797260_2_alg».proof.Proof.GemmArray
import Idealize.ShloMosaic.Adequacy
import Idealize.ShloMosaic.Init

noncomputable section

namespace Cert.Proof

open Idealize.ShloMosaic Idealize.SL.Sem Idealize.ShloMosaic.TcCoe

theorem frame_k : Cert.frame_Kernel := fun m ρ _ => Cert.Kernel.Gen.frame m ρ

theorem frame_ki : Cert.frame_KernelIdeal := fun m ρ _ => Cert.KernelIdeal.Gen.frame m ρ

/-- The reference has no pallas region: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

section
open Cert.KernelIdeal Cert.KernelIdeal.Gen

/-- The kernel program's result buffer ends at the layer's result of the launch contents of the arguments: the
    second region's output array is the layer's result of what it finds — `x` as launched, the first region's
    array, which is the reparameterised weight of the launched weight parameters, and the host operations' bias row. -/
theorem kernel_result (m : (ℓ : Loc nD τ sig) → Buf (Elt Ideal) ℓ) (ρ : Dev nD → PrngReg) (c : Dev nD) :
    W4 m ρ c (Proc.devRef .tc main_v5)
      = Cert.BayesLinear.linear (m ((c.tc : Thread nD τ).loc main_arg0))
          (Cert.BayesLinear.weight (m ((c.tc : Thread nD τ).loc main_arg1)) (m ((c.tc : Thread nD τ).loc main_arg2)) (m ((c.tc : Thread nD τ).loc main_arg5)))
          (Cert.BayesLinear.bias (m ((c.tc : Thread nD τ).loc main_arg3)) (m ((c.tc : Thread nD τ).loc main_arg4)) (m ((c.tc : Thread nD τ).loc main_arg6))) := by
  rw [Cert.KernelIdeal.ValueRun.fold_result, Cert.KernelIdeal.GemmRegion.gemm_array (V3 m ρ) c,
    Cert.KernelIdeal.HostArgs.V3_arg0, Cert.KernelIdeal.HostArgs.V3_v4, Cert.KernelIdeal.WeightRegion.weight_array (V2 m ρ) c,
    Cert.KernelIdeal.HostArgs.V2_arg1, Cert.KernelIdeal.HostArgs.V2_arg2, Cert.KernelIdeal.HostArgs.V2_arg5,
    Cert.KernelIdeal.HostBias.V3_v3, Cert.BayesLinear.gemm_asRow]

end

/-- From memories that agree on the arguments both programs end with the layer's result of those arguments. -/
theorem algebraic : Cert.algebraic_KernelIdeal_ReferenceIdeal := by
  intro m ρ m' ρ' _ hagree
  refine ⟨fun c => Cert.BayesLinear.linear (m ((c.tc : Thread Cert.KernelIdeal.nD Cert.KernelIdeal.τ).loc Cert.KernelIdeal.main_arg0))
      (Cert.BayesLinear.weight (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg5)))
      (Cert.BayesLinear.bias (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg6))), ?_, ?_⟩
  · exact (θ_run Cert.KernelIdeal.defs _ _).mono (fun _ h c => ⟨(h c).1.trans (kernel_result m ρ c), (h c).2⟩)
      (Cert.KernelIdeal.ValueRun.run_fold (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v9_eq, Cert.ReferenceIdeal.RefValue.ref_eq, (hagree c).1, (hagree c).2.1, (hagree c).2.2.1,
      (hagree c).2.2.2.1, (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
